-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S128x32000 : Shape := ⟨2, ![128, 32000]⟩
abbrev S_ : Shape := ⟨0, ![]⟩

class Facts : Prop where
  bcast_S_S128x32000 : S_.BroadcastsInDim S128x32000 (![] : Fin 0 → Fin S128x32000.rank)
  reducesTo_S128x32000_S_d0_1 : S128x32000.ReducesTo [0, 1] S_
  h_S_ : 0 < S_.numel

variable [Facts]

def fn {F : FTy → Type} [FloatOps F] (main_arg0 : IVec S2x2048 32) (main_arg1 : FVec F S128x32000 .f32) : IVec S_ 1 :=
  let main_v0 : FVec F S128x32000 .f32 := Host.absf main_arg1
  let main_cst : FVec F S_ .f32 := constant S_ .f32 0x7F800000#32
  let main_v1 : FVec F S128x32000 .f32 := broadcastInDim S128x32000 ![] bcast_S_S128x32000 main_cst
  let main_v2 : IVec S128x32000 1 := cmpf .olt main_v0 main_v1
  let main_c : IVec S_ 1 := constantI S_ 1 1#1
  let main_v3 : IVec S_ 1 := (fun x v => Host.reduce IntOp.andi x v reducesTo_S128x32000_S_d0_1 h_S_) main_v2 main_c
  main_v3
-- ==== Kernel.lean ====
abbrev S2x2048 : Shape := ⟨2, ![2, 2048]⟩
abbrev S128x32000 : Shape := ⟨2, ![128, 32000]⟩
abbrev S4096x1 : Shape := ⟨2, ![4096, 1]⟩
abbrev S4096x128 : Shape := ⟨2, ![4096, 128]⟩
abbrev S1024x1 : Shape := ⟨2, ![1024, 1]⟩
abbrev S128x1280 : Shape := ⟨2, ![128, 1280]⟩
abbrev S1024x128 : Shape := ⟨2, ![1024, 128]⟩
abbrev S1024x1280 : Shape := ⟨2, ![1024, 1280]⟩
abbrev S2x2048x128 : Shape := ⟨3, ![2, 2048, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x2048, .i32⟩
  | .hbm, ⟨1, _⟩ => ⟨S128x32000, .f32⟩
  | .hbm, ⟨2, _⟩ => ⟨S4096x1, .i32⟩
  | .hbm, ⟨3, _⟩ => ⟨S128x32000, .bf16⟩
  | .hbm, ⟨4, _⟩ => ⟨S4096x128, .f32⟩
  | .hbm, ⟨5, _⟩ => ⟨S2x2048x128, .f32⟩
  | .local _ .vmem, ⟨0, _⟩ => ⟨S1024x1, .i32⟩
  | .local _ .vmem, ⟨1, _⟩ => ⟨S1024x1, .i32⟩
  | .local _ .vmem, ⟨2, _⟩ => ⟨S128x1280, .bf16⟩
  | .local _ .vmem, ⟨3, _⟩ => ⟨S128x1280, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v22 : BitVec 1 := Scalar.cmpi .eq arg1 c24_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x2048_S4096x1 : S2x2048.ShapeCasts S4096x1
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1280_d1_w32 : S1024x1280.Iotas .tc 32 [1]
  broadcasts_S1024x1_S1024x1280 : S1024x1.Broadcasts S1024x1280
  natLt_1_32 : 1 < 32
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  shapeCasts_S4096x128_S2x2048x128 : S4096x128.ShapeCasts S2x2048x128
  dot_S1024x1280_S128x1280_S1024x128_1_1_0_0_n_n_wf : DotDims.WF S1024x1280 S128x1280 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1280.size a ≤ S128x32000.size a
  hwx0_1 : ∀ i : grid0.Coords, EltTy.bits .bf16 = 32 ∨ (Rect.block (s := S128x32000) S128x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)

variable [Facts₀]

def dot_S1024x1280_S128x1280_S1024x128_1_1_0_0_n_n : DotDims S1024x1280 S128x1280 S1024x128 where
  lhsContracting := [1]
  rhsContracting := [1]
  lhsNonContracting := [0]
  rhsNonContracting := [0]
  lhsBatch := []
  rhsBatch := []
  wf := dot_S1024x1280_S128x1280_S1024x128_1_1_0_0_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048 : Shape := ⟨2, ![2, 2048]⟩
abbrev S128x32000 : Shape := ⟨2, ![128, 32000]⟩
abbrev S2x2048x1 : Shape := ⟨3, ![2, 2048, 1]⟩
abbrev S1x1x32000 : Shape := ⟨3, ![1, 1, 32000]⟩
abbrev S2x2048x32000 : Shape := ⟨3, ![2, 2048, 32000]⟩
abbrev S2x2048x128 : Shape := ⟨3, ![2, 2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S128x32000, .f32⟩
  | .hbm, ⟨2, _⟩ => ⟨S2x2048x1, .i32⟩
  | .hbm, ⟨3, _⟩ => ⟨S1x1x32000, .i32⟩
  | .hbm, ⟨4, _⟩ => ⟨S2x2048x32000, .i32⟩
  | .hbm, ⟨5, _⟩ => ⟨S2x2048x32000, .i32⟩
  | .hbm, ⟨6, _⟩ => ⟨S2x2048x32000, .i1⟩
  | .hbm, ⟨7, _⟩ => ⟨S2x2048x32000, .f32⟩
  | .hbm, ⟨8, _⟩ => ⟨S2x2048x128, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S2x2048_S2x2048x1_0_1 : S2x2048.BroadcastsInDim S2x2048x1 (![0, 1] : Fin 2 → Fin S2x2048x1.rank)
  bcast_S2x2048x1_S2x2048x32000_0_1_2 : S2x2048x1.BroadcastsInDim S2x2048x32000 (![0, 1, 2] : Fin 3 → Fin S2x2048x32000.rank)
  bcast_S1x1x32000_S2x2048x32000_0_1_2 : S1x1x32000.BroadcastsInDim S2x2048x32000 (![0, 1, 2] : Fin 3 → Fin S2x2048x32000.rank)
  dot_S2x2048x32000_S128x32000_S2x2048x128_2_1_01_0_n_n_wf : DotDims.WF S2x2048x32000 S128x32000 S2x2048x128 [2] [1] [0, 1] [0] [] []

variable [Facts₀]

def dot_S2x2048x32000_S128x32000_S2x2048x128_2_1_01_0_n_n : DotDims S2x2048x32000 S128x32000 S2x2048x128 where
  lhsContracting := [2]
  rhsContracting := [1]
  lhsNonContracting := [0, 1]
  rhsNonContracting := [0]
  lhsBatch := []
  rhsBatch := []
  wf := dot_S2x2048x32000_S128x32000_S2x2048x128_2_1_01_0_n_n_wf

class Facts : Prop extends Facts₀ where

variable [Facts]
-- ==== Proof.LibOneHotSum.lean ====
/-
  One-hot sums over the extended reals.

  A "one-hot" weight is `if c = n then 1 else 0`. Multiplying a family by a one-hot weight and summing
  selects one entry (a gather written as a matrix product); summing a family against the one-hot test of a
  label selects the entries carrying that label (a scatter-add written as a matrix product). Both hold on
  all of `EReal`, infinite entries included, because `0 * x = 0` and `1 * x = x` for every extended real.
  The blocked forms say the same when the index range is cut into `K` tiles of `B` and the weight tests
  against `k * B + n`: the tiles' partial sums add up to the one selected entry, or to zero when the
  selecting index lies outside `[0, K * B)`.
  Last, the entry itself: a one-hot matrix built by comparing two integer arrays, widening the bit, converting it
  to a float and rounding to a narrower format has, on the extended reals, exactly these weights as entries
  (the conversion of the integers 0 and 1 is exact and a change of format is the identity).
-/
import Idealize.ShloMosaic.PureOps.Ideal
import Mathlib.Algebra.BigOperators.Fin
import Mathlib.Algebra.BigOperators.Ring.Finset

namespace OneHot

open Finset

/-- The weight of a one-hot row: `1` where the test holds, `0` elsewhere. -/
noncomputable def w (p : Prop) [Decidable p] : EReal := if p then 1 else 0

@[simp] theorem w_true {p : Prop} [Decidable p] (h : p) : w p = 1 := if_pos h
@[simp] theorem w_false {p : Prop} [Decidable p] (h : ¬p) : w p = 0 := if_neg h

theorem w_mul (p : Prop) [Decidable p] (x : EReal) : w p * x = if p then x else 0 := by
  unfold w; split <;> simp

/-- A one-hot row times a column is the selected entry: `∑ n, [c = n] · x n = x c`. -/
theorem sum_select {ι : Type*} [Fintype ι] [DecidableEq ι] (c : ι) (x : ι → EReal) :
    ∑ n, w (c = n) * x n = x c := by
  simp only [w_mul, Finset.sum_ite_eq, Finset.mem_univ, if_true]

/-- No entry selected: the one-hot row is zero and so is the product. -/
theorem sum_select_none {ι : Type*} [Fintype ι] (p : ι → Prop) [DecidablePred p] (x : ι → EReal)
    (h : ∀ n, ¬p n) : ∑ n, w (p n) * x n = 0 := by
  simp only [w_mul, h, if_false, Finset.sum_const_zero]

/-- Summing against the one-hot test of a label keeps the entries that carry the label:
    `∑ e, [r = lab e] · m e = ∑ e with lab e = r, m e`. -/
theorem sum_label {ι κ : Type*} [Fintype ι] [DecidableEq κ] (lab : ι → κ) (r : κ) (m : ι → EReal) :
    ∑ e, w (r = lab e) * m e = ∑ e ∈ Finset.univ.filter (fun e => lab e = r), m e := by
  simp only [w_mul, Finset.sum_filter, eq_comm]

/-- Blocked selection. The range `[0, K * B)` in `K` tiles of `B`; tile `k` contributes
    `∑ n, [c = k * B + n] · x k n`. With `c = k₀ * B + n₀` in range the tiles add up to `x k₀ n₀`. -/
theorem sum_tiles_select {K B : ℕ} (x : Fin K → Fin B → EReal) (k₀ : Fin K) (n₀ : Fin B) :
    ∑ k : Fin K, ∑ n : Fin B, w (k₀.val * B + n₀.val = k.val * B + n.val) * x k n = x k₀ n₀ := by
  have key : ∀ (k : Fin K) (n : Fin B),
      (k₀.val * B + n₀.val = k.val * B + n.val) ↔ (k₀ = k ∧ n₀ = n) := by
    intro k n
    constructor
    · intro h
      have hB : 0 < B := Nat.pos_of_ne_zero (fun hz => by have := n.isLt; omega)
      have h1 : (k₀.val * B + n₀.val) / B = (k.val * B + n.val) / B := by rw [h]
      have h2 : (k₀.val * B + n₀.val) % B = (k.val * B + n.val) % B := by rw [h]
      rw [Nat.mul_comm k₀.val, Nat.mul_comm k.val, Nat.mul_add_div hB, Nat.mul_add_div hB,
        Nat.div_eq_of_lt n₀.isLt, Nat.div_eq_of_lt n.isLt] at h1
      rw [Nat.mul_comm k₀.val, Nat.mul_comm k.val, Nat.mul_add_mod, Nat.mul_add_mod,
        Nat.mod_eq_of_lt n₀.isLt, Nat.mod_eq_of_lt n.isLt] at h2
      exact ⟨Fin.ext (by omega), Fin.ext h2⟩
    · rintro ⟨rfl, rfl⟩; rfl
  have inner : ∀ k : Fin K, ∑ n : Fin B, w (k₀.val * B + n₀.val = k.val * B + n.val) * x k n
      = if k₀ = k then x k n₀ else 0 := by
    intro k
    by_cases hk : k₀ = k
    · subst hk
      have : ∀ n : Fin B, w (k₀.val * B + n₀.val = k₀.val * B + n.val) * x k₀ n = w (n₀ = n) * x k₀ n := by
        intro n; congr 1; unfold w; simp only [key, true_and]
      simp only [this, if_true]
      exact sum_select n₀ (x k₀)
    · rw [if_neg hk]
      exact sum_select_none _ _ (fun n h => hk ((key k n).1 h).1)
  simp only [inner, Finset.sum_ite_eq, Finset.mem_univ, if_true]

/-- Blocked selection, nothing selected: an index outside every tile contributes nothing. -/
theorem sum_tiles_select_none {K B : ℕ} (x : Fin K → Fin B → EReal) (p : Fin K → Fin B → Prop)
    [∀ k n, Decidable (p k n)] (h : ∀ k n, ¬p k n) :
    ∑ k : Fin K, ∑ n : Fin B, w (p k n) * x k n = 0 := by
  simp only [w_mul, h, if_false, Finset.sum_const_zero]

open Idealize.ShloMosaic in
/-- An entry of a one-hot matrix as a kernel builds it — `a == b` elementwise, the bit widened to 32 bits, converted
    to f32, rounded to bf16 — is the weight `[a i = b i]` on the extended reals. -/
theorem entry {s : Shape} (a b : IVec s 32) (i : s.Idx) :
    truncf (F := Ideal) .bf16 (sitofp .f32 (extui 32 (cmpi .eq a b) (by decide))) (by decide) i = w (a i = b i) := by
  show ((((BitVec.ofBool (a i == b i)).setWidth 32).toInt : ℝ) : EReal) = _
  have h1 : ((BitVec.ofBool true).setWidth 32).toInt = 1 := by decide
  have h0 : ((BitVec.ofBool false).setWidth 32).toInt = 0 := by decide
  by_cases h : a i = b i
  · rw [w_true h, beq_iff_eq.mpr h, h1]; simp
  · rw [w_false h, beq_eq_false_iff_ne.mpr h, h0]; simp

end OneHot
-- ==== Proof.Spec.lean ====
/-
  The embedding lookup as one function of the argument arrays.

  Token n carries an integer x n; the table has a row per embedding coordinate e and a column per vocabulary
  entry u < 32000.  The result at (n, e) is the sum over the vocabulary of [x n = u] * w e u: the token's one-hot
  row against row e of the table.  A token whose integer names no vocabulary entry has an all-zero one-hot row.

  The sum over the vocabulary is taken in 25 tiles of 1280 columns.  `psum … L` is the sum over the first L columns;
  adding the next tile's sum to `psum … (v * 1280)` gives `psum … ((v + 1) * 1280)`, whatever the entries are:
  the extended reals are a commutative monoid under addition, and a finite sum over a range splits at any point.
  Inside tile v the kernel tests the token against `j + v * 1280` computed on 32-bit words; that word is the word
  of the number v * 1280 + j.
-/
import Idealize.ShloMosaic.PureOps.Ideal
import Idealize.ShloMosaic.Lib.ValueIdx
import Mathlib.Algebra.BigOperators.Fin
import proofs.«173414_j77541339562063_1_alg».proof.Proof.LibOneHotSum

noncomputable section

namespace Cert.Embed

open Idealize.ShloMosaic Idealize.ShloMosaic.ValueIdx

/-- The summand at token n, coordinate e and column u: the one-hot weight times the table entry; zero past the
    last column. -/
def term (X : (⟨2, ![4096, 1]⟩ : Shape).Idx → BitVec 32) (W : (⟨2, ![128, 32000]⟩ : Shape).Idx → EReal)
    (n : Fin 4096) (e : Fin 128) (u : ℕ) : EReal :=
  if h : u < 32000 then OneHot.w (X (ix2 n (0 : Fin 1)) = BitVec.ofNat 32 u) * W (ix2 e (⟨u, h⟩ : Fin 32000)) else 0

/-- The sum over the first L columns. -/
def psum (X : (⟨2, ![4096, 1]⟩ : Shape).Idx → BitVec 32) (W : (⟨2, ![128, 32000]⟩ : Shape).Idx → EReal)
    (n : Fin 4096) (e : Fin 128) (L : ℕ) : EReal :=
  ∑ u ∈ Finset.range L, term X W n e u

variable (X : (⟨2, ![4096, 1]⟩ : Shape).Idx → BitVec 32) (W : (⟨2, ![128, 32000]⟩ : Shape).Idx → EReal)
  (n : Fin 4096) (e : Fin 128)

theorem psum_zero : psum X W n e 0 = 0 := Finset.sum_range_zero _

/-- A sum over a longer prefix is the sum over the shorter one plus the sum over the columns in between. -/
theorem psum_add (L B : ℕ) : psum X W n e (L + B) = psum X W n e L + ∑ j : Fin B, term X W n e (L + j.val) := by
  unfold psum
  rw [Finset.sum_range_add]
  congr 1
  exact Finset.sum_range (fun j => term X W n e (L + j))

/-- On 32-bit words, column j of tile v is the word of v * 1280 + j. -/
theorem word_of_tile (v j : ℕ) :
    BitVec.ofNat 32 j + BitVec.ofNat 32 v * 1280#32 = BitVec.ofNat 32 (v * 1280 + j) := by
  rw [show (1280#32 : BitVec 32) = BitVec.ofNat 32 1280 from rfl, ← BitVec.ofNat_mul, ← BitVec.ofNat_add, Nat.add_comm]

/-- ONE TILE. The sum over the first v tiles plus tile v's sum — the token tested against the words `j + v * 1280`,
    the table read at the tile's columns — is the sum over the first v + 1 tiles. -/
theorem tile_step (v : ℕ) (hv : v < 25) (x : BitVec 32) (hx : x = X (ix2 n (0 : Fin 1))) (wb : Fin 1280 → EReal)
    (hw : ∀ j : Fin 1280, wb j = W (ix2 e (⟨v * 1280 + j.val, by have := j.isLt; omega⟩ : Fin 32000))) :
    psum X W n e (v * 1280) + ∑ j : Fin 1280, OneHot.w (x = BitVec.ofNat 32 j.val + BitVec.ofNat 32 v * 1280#32) * wb j
      = psum X W n e ((v + 1) * 1280) := by
  rw [show (v + 1) * 1280 = v * 1280 + 1280 by omega, psum_add]
  congr 1
  refine Finset.sum_congr rfl fun j _ => ?_
  have hj : v * 1280 + j.val < 32000 := by have := j.isLt; omega
  unfold term
  rw [dif_pos hj, hw j, hx, word_of_tile]

/-- The sum over all 25 tiles is the sum over the vocabulary. -/
theorem psum_full :
    psum X W n e 32000 = ∑ k : Fin 32000, OneHot.w (X (ix2 n (0 : Fin 1)) = BitVec.ofNat 32 k.val) * W (ix2 e k) := by
  unfold psum
  rw [Finset.sum_range]
  refine Finset.sum_congr rfl fun k _ => ?_
  unfold term
  rw [dif_pos k.isLt]

/-- THE RESULT as a function of the two argument arrays: at (b, s, e) the sum over the vocabulary of
    [x b s = k] * w e k. -/
def G (x : (⟨2, ![2, 2048]⟩ : Shape).Idx → BitVec 32) (w : (⟨2, ![128, 32000]⟩ : Shape).Idx → EReal) :
    (⟨3, ![2, 2048, 128]⟩ : Shape).Idx → EReal :=
  fun i => ∑ k : Fin 32000, OneHot.w (x (ix2 (i 0 : Fin 2) (i 1 : Fin 2048)) = BitVec.ofNat 32 k.val) * w (ix2 (i 2 : Fin 128) k)

end Cert.Embed

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Payload.lean ====
/-
  The body's arithmetic at one entry, over the extended reals.

  The accumulating store writes, at row r and coordinate e of the 1024 x 128 scratch, the value carried so far plus
  the product of the tile's one-hot block with the tile of the table: the sum over the tile's 1280 columns j of
  [x r = j + v * 1280] * w e j, where x is the block of 1024 token integers, w the 128 x 1280 tile of the table and
  v the grid's second coordinate.  The one-hot entry is built by comparing, widening, converting and rounding, which
  on the extended reals is the 0-1 weight of the comparison; the matrix product into a zero accumulator contracts
  the second axis of both operands, so its entry is the plain sum over that axis.  The reset store writes zero.
-/
import proofs.«173414_j77541339562063_1_alg».proof.Proof.Gen.KernelIdeal.Skeleton
import proofs.«173414_j77541339562063_1_alg».proof.Proof.LibOneHotSum
import proofs.«173414_j77541339562063_1_alg».proof.Proof.LibUnitAxes
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- Two spellings of one test have one weight. -/
theorem w_congr {p q : Prop} [Decidable p] [Decidable q] (h : p ↔ q) : OneHot.w p = OneHot.w q := by
  unfold OneHot.w
  exact if_congr h rfl rfl

/-- The left operand of the tile's product is read at (row, contracted column): the row is the result's row. -/
theorem lhs_row (i : S1024x128.Idx) (q : dot_S1024x1280_S128x1280_S1024x128_1_1_0_0_n_n.contr.Idx) :
    (dot_S1024x1280_S128x1280_S1024x128_1_1_0_0_n_n.lhsIdx i q 0).val = (i 0).val := by
  unfold DotDims.lhsIdx
  rw [dif_neg (show ¬(0 : Fin S1024x1280.rank) ∈ dot_S1024x1280_S128x1280_S1024x128_1_1_0_0_n_n.lhsBatch by decide), dif_pos (show (0 : Fin S1024x1280.rank) ∈ dot_S1024x1280_S128x1280_S1024x128_1_1_0_0_n_n.lhsNonContracting by decide)]
  rfl

/-- The right operand is read at (coordinate, contracted column): its row is the result's column. -/
theorem rhs_row (i : S1024x128.Idx) (q : dot_S1024x1280_S128x1280_S1024x128_1_1_0_0_n_n.contr.Idx) :
    (dot_S1024x1280_S128x1280_S1024x128_1_1_0_0_n_n.rhsIdx i q 0).val = (i 1).val := by
  unfold DotDims.rhsIdx
  rw [dif_neg (show ¬(0 : Fin S128x1280.rank) ∈ dot_S1024x1280_S128x1280_S1024x128_1_1_0_0_n_n.rhsBatch by decide), dif_pos (show (0 : Fin S128x1280.rank) ∈ dot_S1024x1280_S128x1280_S1024x128_1_1_0_0_n_n.rhsNonContracting by decide)]
  rfl

/-- The tile's product into the zero accumulator, at (r, e): the sum over the tile's columns of left (r, j) times
    right (e, j). -/
theorem tile_product (lhs : FVec Ideal S1024x1280 .bf16) (rhs : FVec Ideal S128x1280 .bf16) (r : Fin 1024) (e : Fin 128) :
    matmul (F := Ideal) dot_S1024x1280_S128x1280_S1024x128_1_1_0_0_n_n none lhs rhs (constant (F := Ideal) S1024x128 .f32 0x00000000#32) (ix2 r e)
      = ∑ j : Fin 1280, lhs (ix2 r j) * rhs (ix2 e j) := by
  refine (Ideal.matmul_constant_zero_apply dot_S1024x1280_S128x1280_S1024x128_1_1_0_0_n_n none lhs rhs (ix2 r e)).trans ?_
  rw [← Equiv.sum_comp (contrEquiv1 dot_S1024x1280_S128x1280_S1024x128_1_1_0_0_n_n 1280 rfl rfl).symm]
  refine Finset.sum_congr rfl fun k _ => ?_
  have hk := contrEquiv1_symm_val dot_S1024x1280_S128x1280_S1024x128_1_1_0_0_n_n 1280 rfl rfl k
  have el : dot_S1024x1280_S128x1280_S1024x128_1_1_0_0_n_n.lhsIdx (ix2 r e) ((contrEquiv1 dot_S1024x1280_S128x1280_S1024x128_1_1_0_0_n_n 1280 rfl rfl).symm k) = ix2 r k := funext fun a => Fin.ext (by
    match a with
    | ⟨0, _⟩ => exact lhs_row _ _
    | ⟨1, _⟩ => exact (dot_S1024x1280_S128x1280_S1024x128_1_1_0_0_n_n.lhsIdx_val_of_single rfl _ _).trans hk)
  have er : dot_S1024x1280_S128x1280_S1024x128_1_1_0_0_n_n.rhsIdx (ix2 r e) ((contrEquiv1 dot_S1024x1280_S128x1280_S1024x128_1_1_0_0_n_n 1280 rfl rfl).symm k) = ix2 e k := funext fun a => Fin.ext (by
    match a with
    | ⟨0, _⟩ => exact rhs_row _ _
    | ⟨1, _⟩ => exact (dot_S1024x1280_S128x1280_S1024x128_1_1_0_0_n_n.rhsIdx_val_of_single rfl _ _).trans hk)
  rw [el, er]

/-- The tile's vocabulary words at (r, j): the lane number j plus the tile's base v * 1280, on 32-bit words. -/
theorem tile_word (h : S1024x1280.Iotas .tc 32 [1]) (b : BitVec 32) (r : Fin 1024) (j : Fin 1280) :
    addi (iota .tc S1024x1280 32 [1] h) (broadcast S1024x1280 b) (ix2 r j) = BitVec.ofNat 32 j.val + b := by
  show IntOp.addi (iota .tc S1024x1280 32 [1] h (ix2 r j)) b = _
  rw [iota_single_apply]
  rfl

/-- THE ACCUMULATING STORE at (r, e): the carried value plus the tile's one-hot sum. -/
theorem pay2_apply (i : grid0.Coords) (v3 : Vec Ideal S1024x1 .i32) (v14 : Vec Ideal S128x1280 .bf16) (v17 : Vec Ideal S1024x128 .f32)
    (r : Fin 1024) (e : Fin 128) :
    k0_pay2 (F := Ideal) i v3 v14 v17 (ix2 r e)
      = v17 (ix2 r e) + ∑ j : Fin 1280,
          OneHot.w (v3 (ix2 r (0 : Fin 1)) = BitVec.ofNat 32 j.val + BitVec.ofNat 32 (i 1).val * 1280#32) * v14 (ix2 e j) := by
  unfold k0_pay2
  simp only [shapeCast_self]
  refine congrArg (v17 (ix2 r e) + ·) ?_
  refine (tile_product _ _ r e).trans ?_
  refine Finset.sum_congr rfl fun j _ => ?_
  refine congrArg (· * v14 (ix2 e j)) ?_
  refine (OneHot.entry _ _ (ix2 r j)).trans (w_congr ?_)
  rw [Cert.LibUnitAxes.broadcastTo_a1_ab_apply, tile_word]
  exact Iff.rfl

/-- THE RESET STORE: zero at every entry. -/
theorem pay1_apply (r : Fin 1024) (e : Fin 128) : k0_pay1 (F := Ideal) (ix2 r e) = 0 := by
  unfold k0_pay1
  simp only [shapeCast_self]
  exact Ideal.ofBits_zero_f32

end Cert.KernelIdeal.Payload

end
-- ==== Proof.Pieces.lean ====
/-
  What one run of the body leaves behind, case by case, at any float instance.

  The body reads the block of token integers, the tile of the table and the scratch, and stores one value over the
  whole scratch: the accumulating store's value of (tokens, tile, scratch as read).  In the first tile of a row of
  tiles the scratch was overwritten with the reset value just before, so the value read is the reset value; in the
  other tiles it is what the previous grid point left.  In the last tile the output block is stored too, with the
  scratch as just written.  Every store covers its whole buffer from offset zero, so what the buffer holds
  afterwards is the last store's value, and a load after such a store reads that value.
-/
import proofs.«173414_j77541339562063_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A middle tile: the scratch ends at the accumulating store's value over what it held. -/
theorem scratch_B (c : Dev nD) (i : grid0.Coords) (a2 : Memref sig .tc .vmem S1024x1 .i32) (h2 : a2.IsWhole) (a3 : Memref sig .tc .vmem S128x1280 .bf16) (h3 : a3.IsWhole) (a4 : Memref sig .tc .vmem S1024x128 .f32) (h4 : a4.IsWhole) (a5 : Memref sig .tc .vmem S1024x128 .f32) (h5 : a5.IsWhole) (hc0 : ¬cond0_0 i) (hc1 : ¬cond0_1 i)
    (x0 : Vec F S1024x1 .i32) (x1 : Vec F S128x1280 .bf16) (xs0 : Vec F S1024x128 .f32) :
    sout0_B_0 c i a2 h2 a3 h3 a4 h4 a5 h5 hc0 hc1 x0 x1 xs0 = k0_pay2 i x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x1) hz, View.ld_unit_zero (S := S128x1280) hz, View.ld_unit_zero (S := S1024x128) hz]

/-- The first tile: the scratch is reset, read back, and ends at the accumulating store's value over the reset value. -/
theorem scratch_A (c : Dev nD) (i : grid0.Coords) (a2 : Memref sig .tc .vmem S1024x1 .i32) (h2 : a2.IsWhole) (a3 : Memref sig .tc .vmem S128x1280 .bf16) (h3 : a3.IsWhole) (a4 : Memref sig .tc .vmem S1024x128 .f32) (h4 : a4.IsWhole) (a5 : Memref sig .tc .vmem S1024x128 .f32) (h5 : a5.IsWhole) (hc0 : cond0_0 i) (hc1 : ¬cond0_1 i)
    (x0 : Vec F S1024x1 .i32) (x1 : Vec F S128x1280 .bf16) :
    sout0_A_0 c i a2 h2 a3 h3 a4 h4 a5 h5 hc0 hc1 x0 x1 = k0_pay2 i x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, h5.read_unread, View.ld_unit_zero (S := S1024x1) hz, View.ld_unit_zero (S := S128x1280) hz, View.ld_unit_zero (S := S1024x128) hz]

/-- The last tile: the scratch ends as in a middle tile, -/
theorem scratch_C (c : Dev nD) (i : grid0.Coords) (a2 : Memref sig .tc .vmem S1024x1 .i32) (h2 : a2.IsWhole) (a3 : Memref sig .tc .vmem S128x1280 .bf16) (h3 : a3.IsWhole) (a4 : Memref sig .tc .vmem S1024x128 .f32) (h4 : a4.IsWhole) (a5 : Memref sig .tc .vmem S1024x128 .f32) (h5 : a5.IsWhole) (hc0 : ¬cond0_0 i) (hc1 : cond0_1 i)
    (x0 : Vec F S1024x1 .i32) (x1 : Vec F S128x1280 .bf16) (xs0 : Vec F S1024x128 .f32) :
    sout0_C_0 c i a2 h2 a3 h3 a4 h4 a5 h5 hc0 hc1 x0 x1 xs0 = k0_pay2 i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x1) hz, View.ld_unit_zero (S := S128x1280) hz, View.ld_unit_zero (S := S1024x128) hz]

/-- and the output block is the scratch as just written. -/
theorem out_C (c : Dev nD) (i : grid0.Coords) (a2 : Memref sig .tc .vmem S1024x1 .i32) (h2 : a2.IsWhole) (a3 : Memref sig .tc .vmem S128x1280 .bf16) (h3 : a3.IsWhole) (a4 : Memref sig .tc .vmem S1024x128 .f32) (h4 : a4.IsWhole) (a5 : Memref sig .tc .vmem S1024x128 .f32) (h5 : a5.IsWhole) (hc0 : ¬cond0_0 i) (hc1 : cond0_1 i)
    (x0 : Vec F S1024x1 .i32) (x1 : Vec F S128x1280 .bf16) (xs0 : Vec F S1024x128 .f32) :
    out0_C_2 c i a2 h2 a3 h3 a4 h4 a5 h5 hc0 hc1 x0 x1 xs0 = k0_pay2 i x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x128) _ hz]
  simp only [View.readAt_eq_ld, h2.read_unread, h3.read_unread, h5.read_unread, View.ld_unit_zero (S := S1024x1) hz, View.ld_unit_zero (S := S128x1280) hz, View.ld_unit_zero (S := S1024x128) hz]

end Cert.KernelIdeal.Pieces

end
-- ==== Proof.Blocks.lean ====
/-
  Which entries of the arrays a grid point's blocks are.

  The grid has 4 x 25 points, the second coordinate running fastest: point t is row-block t / 25 and vocabulary
  tile t % 25.  The token window's block at t is rows (t / 25) * 1024 .. + 1023 of the 4096 x 1 token array; the table
  window's block is columns (t % 25) * 1280 .. + 1279 of the 128 x 32000 table; the output window's block is rows
  (t / 25) * 1024 .. + 1023 of the 4096 x 128 result.  The index maps are decided once over the 100 points.
-/
import proofs.«173414_j77541339562063_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem lt100 (t : Fin cfg0.N) : t.val < 100 := lt_of_lt_of_eq t.isLt (show cfg0.N = 100 from N_0)

/-- The token (row of the 4096) that row r of point t's block is. -/
def tok (t : Fin cfg0.N) (r : Fin 1024) : Fin 4096 :=
  ⟨t.val / 25 * 1024 + r.val, by have := lt100 t; have := r.isLt; omega⟩

/-- The vocabulary column that column j of point t's tile is. -/
def col (t : Fin cfg0.N) (j : Fin 1280) : Fin 32000 :=
  ⟨t.val % 25 * 1280 + j.val, by have := j.isLt; omega⟩

theorem tok_val (t : Fin cfg0.N) (r : Fin 1024) : (tok t r).val = t.val / 25 * 1024 + r.val := rfl
theorem col_val (t : Fin cfg0.N) (j : Fin 1280) : (col t j).val = t.val % 25 * 1280 + j.val := rfl

/-- The printed index maps and the second grid coordinate, decided over the grid. -/
theorem idx_facts : ∀ t : Fin cfg0.N,
    win0_0.index t (0 : Fin 2) = t.val / 25 ∧ win0_0.index t (1 : Fin 2) = 0
    ∧ win0_1.index t (0 : Fin 2) = 0 ∧ win0_1.index t (1 : Fin 2) = t.val % 25
    ∧ win0_2.index t (0 : Fin 2) = t.val / 25 ∧ win0_2.index t (1 : Fin 2) = 0
    ∧ ((grid0.coords t) 1).val = t.val % 25 :=
  (by decide +kernel : ∀ t : Fin grid0.N, _)

/-- Row r of the token block at point t is token `tok t r` of the array the region finds. -/
theorem tokens_blk (c : Dev nD) (t : Fin cfg0.N) (r : Fin 1024) :
    (iblk m c 0 t : Vec F S1024x1 .i32) (ix2 r (0 : Fin 1)) = (V m c main_v0 : Vec F S4096x1 .i32) (ix2 (tok t r) (0 : Fin 1)) := by
  obtain ⟨e0, e1, -⟩ := idx_facts t
  unfold iblk
  rw [View.read_apply]
  show V m c main_v0 _ = V m c main_v0 _
  refine congrArg _ ?_
  funext a
  apply Fin.ext
  match a with
  | ⟨0, _⟩ => show win0_0.index t (0 : Fin 2) * 1024 + 1 * r.val = t.val / 25 * 1024 + r.val; rw [e0]; omega
  | ⟨1, _⟩ => show win0_0.index t (1 : Fin 2) * 1 + 1 * 0 = 0; rw [e1]

/-- Entry (e, j) of the table tile at point t is entry (e, `col t j`) of the table the region finds. -/
theorem table_blk (c : Dev nD) (t : Fin cfg0.N) (e : Fin 128) (j : Fin 1280) :
    (iblk m c 1 t : Vec F S128x1280 .bf16) (ix2 e j) = (V m c main_v1 : Vec F S128x32000 .bf16) (ix2 e (col t j)) := by
  obtain ⟨-, -, e2, e3, -⟩ := idx_facts t
  unfold iblk
  rw [View.read_apply]
  show V m c main_v1 _ = V m c main_v1 _
  refine congrArg _ ?_
  funext a
  apply Fin.ext
  match a with
  | ⟨0, _⟩ => show win0_1.index t (0 : Fin 2) * 128 + 1 * e.val = e.val; rw [e2]; omega
  | ⟨1, _⟩ => show win0_1.index t (1 : Fin 2) * 1280 + 1 * j.val = t.val % 25 * 1280 + j.val; rw [e3]; omega

end Cert.KernelIdeal.Blocks

end
-- ==== Proof.Accum.lean ====
/-
  The accumulation across a row of tiles, over the extended reals.

  Within a row-block the 25 grid points visit the vocabulary tiles in order.  The first resets the scratch to zero and
  adds tile 0's one-hot sum; each later point adds its tile's sum to what the point before left.  So after point t the
  scratch entry (r, e) holds the sum over the first (t % 25 + 1) * 1280 vocabulary columns of
  [token = column] * table(e, column), for the token that row r of the block is — by induction on the point, one
  tile's step at a time.  The last point of a row-block also stores the scratch to the output block: the sum over all
  32000 columns.
-/
import proofs.«173414_j77541339562063_1_alg».proof.Proof.Spec
import proofs.«173414_j77541339562063_1_alg».proof.Proof.Payload
import proofs.«173414_j77541339562063_1_alg».proof.Proof.Pieces
import proofs.«173414_j77541339562063_1_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.Embed Cert.KernelIdeal.Blocks

/-- ONE POINT's arithmetic over variables: with the token block's row r being token n, the table tile's columns being
    tile v's, and the carried entry the sum over the first v tiles, the accumulating store writes the sum over the first
    v + 1 tiles. -/
theorem step_vars (X : (⟨2, ![4096, 1]⟩ : Shape).Idx → BitVec 32) (W : (⟨2, ![128, 32000]⟩ : Shape).Idx → EReal)
    (n : Fin 4096) (e : Fin 128) (v : ℕ) (hv : v < 25) (i : grid0.Coords) (hi : (i 1).val = v)
    (x0 : Vec Ideal S1024x1 .i32) (x1 : Vec Ideal S128x1280 .bf16) (acc : Vec Ideal S1024x128 .f32) (r : Fin 1024)
    (hx : x0 (ix2 r (0 : Fin 1)) = X (ix2 n (0 : Fin 1)))
    (hw : ∀ j : Fin 1280, x1 (ix2 e j) = W (ix2 e (⟨v * 1280 + j.val, by have := j.isLt; omega⟩ : Fin 32000)))
    (hacc : acc (ix2 r e) = psum X W n e (v * 1280)) :
    k0_pay2 (F := Ideal) i x0 x1 acc (ix2 r e) = psum X W n e ((v + 1) * 1280) := by
  rw [Payload.pay2_apply, hacc, hi]
  exact tile_step X W n e v hv (x0 (ix2 r (0 : Fin 1))) hx (fun j => x1 (ix2 e j)) hw

variable (m : (ℓ : Loc nD τ sig) → Buf (Elt Ideal) ℓ)

/-- The same at grid point t, on the blocks the point reads. -/
theorem step_at (c : Dev nD) (t : Fin cfg0.N) (acc : Vec Ideal S1024x128 .f32) (r : Fin 1024) (e : Fin 128)
    (hacc : acc (ix2 r e) = psum (V m c main_v0) (V m c main_v1) (tok t r) e (t.val % 25 * 1280)) :
    k0_pay2 (F := Ideal) (grid0.coords t) (iblk m c 0 t) (iblk m c 1 t) acc (ix2 r e)
      = psum (V m c main_v0) (V m c main_v1) (tok t r) e ((t.val % 25 + 1) * 1280) :=
  step_vars (V m c main_v0) (V m c main_v1) (tok t r) e (t.val % 25) (Nat.mod_lt _ (by decide)) (grid0.coords t)
    (idx_facts t).2.2.2.2.2.2 (iblk m c 0 t) (iblk m c 1 t) acc r (tokens_blk m c t r) (fun j => table_blk m c t e j) hacc

/-- From one point to the next inside a row-block: the same token, one more tile. -/
theorem shift (X : (⟨2, ![4096, 1]⟩ : Shape).Idx → BitVec 32) (W : (⟨2, ![128, 32000]⟩ : Shape).Idx → EReal)
    (n : ℕ) (h : n + 1 < cfg0.N) (h0 : ¬(n + 1) % 25 = 0) (r : Fin 1024) (e : Fin 128) (val : EReal)
    (ih : val = psum X W (tok ⟨n, Nat.lt_of_succ_lt h⟩ r) e ((n % 25 + 1) * 1280)) :
    val = psum X W (tok ⟨n + 1, h⟩ r) e ((n + 1) % 25 * 1280) := by
  have htok : tok ⟨n, Nat.lt_of_succ_lt h⟩ r = tok ⟨n + 1, h⟩ r := Fin.ext (by rw [tok_val, tok_val]; show n / 25 * 1024 + r.val = (n + 1) / 25 * 1024 + r.val; omega)
  have hL : (n % 25 + 1) * 1280 = (n + 1) % 25 * 1280 := by omega
  rw [htok, hL] at ih
  exact ih

/-- THE SCRATCH after point n: the sum over the tiles visited so far in the point's row-block. -/
theorem scratch_eq (c : Dev nD) : ∀ (n : ℕ) (h : n < cfg0.N) (r : Fin 1024) (e : Fin 128),
    (outsAt0 m c n h).2 (ix2 r e) = psum (V m c main_v0) (V m c main_v1) (tok ⟨n, h⟩ r) e ((n % 25 + 1) * 1280)
  | 0, h, r, e => by
    rw [outsAt0_A m c ⟨0, h⟩ rfl (show ¬0 % 25 = 24 by decide)]
    dsimp only
    rw [Pieces.scratch_A]
    refine step_at m c ⟨0, h⟩ _ r e ?_
    rw [Payload.pay1_apply]
    exact (psum_zero _ _ _ _).symm
  | n + 1, h, r, e => by
    have hN := lt100 ⟨n + 1, h⟩
    by_cases h0 : (n + 1) % 25 = 0
    · have h1 : ¬(n + 1) % 25 = 24 := by omega
      rw [outsAt0_A m c ⟨n + 1, h⟩ h0 h1]
      dsimp only
      rw [Pieces.scratch_A]
      refine step_at m c ⟨n + 1, h⟩ _ r e ?_
      show k0_pay1 (F := Ideal) (ix2 r e) = psum _ _ _ _ ((n + 1) % 25 * 1280)
      rw [h0, Payload.pay1_apply, Nat.zero_mul]
      exact (psum_zero _ _ _ _).symm
    · have ih := scratch_eq c n (Nat.lt_of_succ_lt h) r e
      by_cases h1 : (n + 1) % 25 = 24
      · rw [outsAt0_C m c ⟨n + 1, h⟩ h0 h1]
        dsimp only
        rw [Pieces.scratch_C]
        refine step_at m c ⟨n + 1, h⟩ _ r e ?_
        exact shift _ _ n h h0 r e _ ih
      · rw [outsAt0_B m c ⟨n + 1, h⟩ h0 h1]
        dsimp only
        rw [Pieces.scratch_B]
        refine step_at m c ⟨n + 1, h⟩ _ r e ?_
        exact shift _ _ n h h0 r e _ ih

/-- THE OUTPUT BLOCK at the last point of a row-block: the sum over the whole vocabulary. -/
theorem out_eq (c : Dev nD) (t : Fin cfg0.N) (h1 : t.val % 25 = 24) (r : Fin 1024) (e : Fin 128) :
    (outsAt0 m c t.val t.isLt).1 (ix2 r e) = psum (V m c main_v0) (V m c main_v1) (tok t r) e 32000 := by
  obtain ⟨n, h⟩ := t
  cases n with
  | zero => exact absurd h1 (show ¬0 % 25 = 24 by decide)
  | succ n =>
    have h0 : ¬(n + 1) % 25 = 0 := by dsimp only at h1; omega
    have h1' : (n + 1) % 25 = 24 := h1
    have ih := scratch_eq m c n (Nat.lt_of_succ_lt h) r e
    rw [outsAt0_C m c ⟨n + 1, h⟩ h0 h1']
    dsimp only
    rw [Pieces.out_C]
    have hs := step_at m c ⟨n + 1, h⟩ (outsAt0 m c n (Nat.lt_of_succ_lt h)).2 r e (shift _ _ n h h0 r e _ ih)
    have hL : ((⟨n + 1, h⟩ : Fin cfg0.N).val % 25 + 1) * 1280 = 32000 := by show ((n + 1) % 25 + 1) * 1280 = 32000; omega
    rw [hL] at hs
    exact hs

end Cert.KernelIdeal.Accum

end
-- ==== Proof.KernelRun.lean ====
/-
  The kernel's result as a function of its arguments, over the extended reals.

  The last point of each row-block writes its output block back: rows (t / 25) * 1024 .. + 1023 of the 4096 x 128
  array, each entry the sum over the whole vocabulary for that row's token.  The four write-backs tile the array, so
  after the region the array holds, at (n, e), the sum over the vocabulary for token n.  Before the region the tokens
  were laid out as one column (token b * 2048 + s is x b s) and the table rounded to a narrower format, which on the
  extended reals changes nothing; after it the array is viewed as 2 x 2048 x 128, entry (b, s, e) being row
  b * 2048 + s.  Together: the result at (b, s, e) is the sum over k of [x b s = k] * w e k.
-/
import proofs.«173414_j77541339562063_1_alg».proof.Proof.Accum
import Idealize.ShloMosaic.Lib.Pipeline.Value
import Idealize.ShloMosaic.Lib.StableHlo.Run
import Idealize.ShloMosaic.Lib.Tactic

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.Embed Cert.KernelIdeal.Blocks Cert.KernelIdeal.Accum

variable (m : (ℓ : Loc nD τ sig) → Buf (Elt Ideal) ℓ) (ρ : Dev nD → PrngReg)

/-- What the 4096 x 128 array holds after the region: at (n, e) the sum over the vocabulary for token n. -/
def rows (c : Dev nD) : (⟨2, ![4096, 128]⟩ : Shape).Idx → EReal :=
  fun i => psum (V m c main_v0) (V m c main_v1) (i 0) (i 1) 32000

theorem rows_apply (c : Dev nD) (n : Fin 4096) (e : Fin 128) :
    rows m c (ix2 n e) = psum (V m c main_v0) (V m c main_v1) n e 32000 := rfl

/-- The output block at a row-block's last point, at any entry of the block. -/
theorem out_at (c : Dev nD) (t : Fin cfg0.N) (h1 : t.val % 25 = 24) (y : S1024x128.Idx) :
    (outsAt0 m c t.val t.isLt).1 y = psum (V m c main_v0) (V m c main_v1) (tok t (y 0)) (y 1) 32000 := by
  obtain ⟨r, e, rfl⟩ : ∃ (r : Fin 1024) (e : Fin 128), y = ix2 r e := ⟨y 0, y 1, eq_ix2 y⟩
  exact out_eq m c t h1 r e

/-- WHAT A WRITE-BACK WRITES is the point's block of `rows`. -/
theorem flushed_eq (c : Dev nD) (t : Fin cfg0.N) (hf : (cfg0.win 2).flush t = true) :
    (dats m 0 c).flushed 2 t = ((cfg0.win 2).blk t).view.read (Elt Ideal) (rows m c) := by
  have h1 : t.val % 25 = 24 := (flush0_2 t).mp hf
  obtain ⟨-, -, -, -, e4, e5, -⟩ := idx_facts t
  have key : ∀ y : S1024x128.Idx, (outsAt0 m c t.val t.isLt).1 y = rows m c (((cfg0.win 2).blk t).view.emb y) := by
    intro y
    refine (out_at m c t h1 y).trans ?_
    have ha : (((cfg0.win 2).blk t).view.emb y) 0 = tok t (y 0) :=
      Fin.ext (by show win0_2.index t (0 : Fin 2) * 1024 + 1 * (y 0).val = t.val / 25 * 1024 + (y 0).val; rw [e4]; omega)
    have hb : (((cfg0.win 2).blk t).view.emb y) 1 = y 1 :=
      Fin.ext (by show win0_2.index t (1 : Fin 2) * 128 + 1 * (y 1).val = (y 1).val; rw [e5]; omega)
    show _ = psum _ _ ((((cfg0.win 2).blk t).view.emb y) 0) ((((cfg0.win 2).blk t).view.emb y) 1) 32000
    rw [ha, hb]
  generalize rows m c = R at key
  show (cfg0.win 2).cut (grid0.coords t) ((dats m 0 c).after 2 t) = _
  rw [after0_2]
  funext y
  exact key y

/-- An index of the array is in point t's block iff each coordinate is in the block's range on its axis. -/
theorem mem_blk (t : Fin cfg0.N) (i : S4096x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v2).slice (win0_2.rect t)).set ↔ _
  rw [View.set_slice_whole, Rect.mem_set_unit]
  exact Iff.rfl

/-- Every row of the array is in the block some row-block's last point writes back. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 100 := N_0
  obtain ⟨t, ht⟩ : ∃ t : Fin cfg0.N, t.val = (i 0).val / 1024 * 25 + 24 :=
    ⟨⟨(i 0).val / 1024 * 25 + 24, by rw [hN]; omega⟩, rfl⟩
  obtain ⟨-, -, -, -, e4, e5, -⟩ := idx_facts t
  refine ⟨t, (flush0_2 t).mpr (by rw [ht]; omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 128 ≤ (i 1).val ∧ (i 1).val < win0_2.index t (1 : Fin 2) * 128 + 128
    rw [e5]; omega

/-- THE ARRAY after the region. -/
theorem final2 (c : Dev nD) : (dats m 0 c).arrAt 2 cfg0.N = rows m c :=
  (dats m 0 c).arrAt_eq_of_cover 2 (rows m c) (flushed_eq m c) cover

/-- The tokens as the region finds them: one column, token b * 2048 + s being x b s. -/
theorem tokens_apply (c : Dev nD) (b : Fin 2) (s : Fin 2048) (n : Fin 4096) (hn : n.val = b.val * 2048 + s.val) :
    (V m c main_v0 : Vec Ideal S4096x1 .i32) (ix2 n (0 : Fin 1)) = m ((c : Thread nD τ).loc main_arg0) (ix2 b s) := by
  have e : (V m c main_v0 : Vec Ideal S4096x1 .i32)
      = shapeCast S4096x1 (m ((c : Thread nD τ).loc main_arg0)) Facts₀.shapeCasts_S2x2048_S4096x1 := by
    show StableHlo.after hostOps0 (fun b => m (c, b)) (Proc.devRef .tc main_v0) = _
    after_results
    rfl
  rw [e]
  refine shapeCast_apply _ _ (ix2 n (0 : Fin 1)) (ix2 b s) ?_
  rw [Shape.rowMajor_val_two, Shape.rowMajor_val_two]
  show b.val * 2048 + s.val = n.val * 1 + 0
  omega

/-- The table as the region finds it: the argument's entries. -/
theorem table_apply (c : Dev nD) (i : S128x32000.Idx) :
    (V m c main_v1 : Vec Ideal S128x32000 .bf16) i = m ((c : Thread nD τ).loc main_arg1) i := by
  have e : (V m c main_v1 : Vec Ideal S128x32000 .bf16)
      = truncf (F := Ideal) .bf16 (m ((c : Thread nD τ).loc main_arg1)) Facts₀.bitsLt_bf16_f32 := by
    show StableHlo.after hostOps0 (fun b => m (c, b)) (Proc.devRef .tc main_v1) = _
    after_results
  rw [e]
  rfl

/-- THE RESULT ARRAY after the reshape that follows the region is the specification of the two arguments. -/
theorem tail_eq (c : Dev nD) :
    Pipeline.afterTail₀ cfgs (dats m) 0 (V0 m) [hostOps1] c main_v3
      = G (m ((c : Thread nD τ).loc main_arg0)) (m ((c : Thread nD τ).loc main_arg1)) := by
  have e : Pipeline.afterTail₀ cfgs (dats m) 0 (V0 m) [hostOps1] c main_v3
      = shapeCast S2x2048x128 (rows m c) Facts₀.shapeCasts_S4096x128_S2x2048x128 := by
    unfold Pipeline.afterTail₀
    show StableHlo.after hostOps1 _ (Proc.devRef .tc main_v3) = _
    after_results
    rw [show Pipeline.withArrays (cfgs 0).spec c (V0 m c) (fun w => (dats m 0 c).arrAt w (cfgs 0).N) (Proc.devRef .tc main_v2)
        = rows m c from (Pipeline.withArrays_arr spec0 launch0.win.arr_inj c _ _ 2).trans (final2 m c)]
    rfl
  rw [e]
  funext j
  obtain ⟨b, s, d, rfl⟩ : ∃ (b : Fin 2) (s : Fin 2048) (d : Fin 128), j = ix3 b s d := ⟨j 0, j 1, j 2, eq_ix3 j⟩
  have hn : b.val * 2048 + s.val < 4096 := by have := b.isLt; have := s.isLt; omega
  rw [shapeCast_apply (rows m c) _ (ix3 b s d) (ix2 (⟨b.val * 2048 + s.val, hn⟩ : Fin 4096) d) (by
    rw [Shape.rowMajor_val_two, Shape.rowMajor_val_three]
    show (b.val * 2048 + s.val) * 128 + d.val = (b.val * 2048 + s.val) * 128 + d.val
    rfl)]
  rw [rows_apply, psum_full]
  unfold G
  refine Finset.sum_congr rfl fun k _ => ?_
  rw [tokens_apply m c b s ⟨b.val * 2048 + s.val, hn⟩ rfl, table_apply]

/-- THE RUN, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RunValue

end
-- ==== Proof.RefSide.lean ====
/-
  The reference's result is the specification.

  The reference builds the one-hot array of the tokens against the numbers 0 .. 31999, converts the comparison bits to
  floats, and contracts the vocabulary axis with the table.  At (b, s, e) that is the sum over k of
  [x b s = k] * w e k: the converted bit is 1 where the comparison holds and 0 elsewhere, exactly.
-/
import proofs.«173414_j77541339562063_1_alg».proof.Proof.Gen.ReferenceIdeal.Read
import proofs.«173414_j77541339562063_1_alg».proof.Proof.Spec

noncomputable section

namespace Cert.ReferenceIdeal.RefValue

open Cert.ReferenceIdeal Cert.ReferenceIdeal.Read Idealize.ShloMosaic Idealize.ShloMosaic.ValueIdx Cert.Embed

/-- A comparison bit converted to a float, unsigned: the 0-1 weight of the comparison. -/
theorem uitofp_bit (a b : BitVec 32) :
    FloatOps.uitofp (F := Ideal) .f32 (IntOp.cmpi .eq a b) = OneHot.w (a = b) := by
  show (((BitVec.ofBool (a == b)).toNat : ℝ) : EReal) = _
  have h1 : (BitVec.ofBool true).toNat = 1 := by decide
  have h0 : (BitVec.ofBool false).toNat = 0 := by decide
  by_cases h : a = b
  · rw [OneHot.w_true h, beq_iff_eq.mpr h, h1]; simp
  · rw [OneHot.w_false h, beq_eq_false_iff_ne.mpr h, h0]; simp

/-- The reference's last stage, index by index, is the specification of the two arguments. -/
theorem ref_eq (x0 : (⟨S2x2048, .i32⟩ : BufTy).Contents (Elt Ideal)) (x1 : (⟨S128x32000, .f32⟩ : BufTy).Contents (Elt Ideal)) :
    val_main_v1 (F := Ideal) x0 x1 = G x0 x1 := by
  funext i
  obtain ⟨b, s, e, rfl⟩ : ∃ (b : Fin 2) (s : Fin 2048) (e : Fin 128), i = ix3 b s e := ⟨i 0, i 1, i 2, eq_ix3 i⟩
  rw [val_main_v1_apply]
  unfold G
  refine Finset.sum_congr rfl fun k _ => ?_
  have er : ridx_main_v1 (ix3 b s e) k = ix2 e k :=
    funext fun a => Fin.ext (by match a with | ⟨0, _⟩ => rfl | ⟨1, _⟩ => rfl)
  have e0 : idx_main_call0_v0 (idx_main_call0_v2 (lidx_main_v1 (ix3 b s e) k)) = ix2 b s :=
    funext fun a => Fin.ext (by match a with | ⟨0, _⟩ => rfl | ⟨1, _⟩ => rfl)
  rw [er, val_main_v0_apply, val_main_call0_v4_apply, val_main_call0_v2_apply, val_main_call0_v0_apply,
    val_main_call0_v3_apply, val_main_call0_v1_apply, uitofp_bit, e0]

end Cert.ReferenceIdeal.RefValue

end
-- ==== Proof.lean ====
/-
  An embedding lookup written as a one-hot matrix product, against the same product written directly.

  The arguments are 2 x 2048 token integers x and a 128 x 32000 table w.  Both programs compute, at (b, s, e),
  the sum over the vocabulary k < 32000 of [x b s = k] * w e k.

  The reference compares every token with every number 0 .. 31999, converts the comparison bits to floats and
  contracts the vocabulary axis with the table in one product.

  The kernel lays the tokens out as one column of 4096, rounds the table to a narrower format, and walks a 4 x 25
  grid: row-block t / 25 of 1024 tokens against vocabulary tile t % 25 of 1280 columns.  At each point it builds the
  tile's one-hot block by comparing the tokens with the words j + (t % 25) * 1280, multiplies it with the table's
  tile and adds the product to a scratch accumulator that is reset at the first tile of a row-block and carried from
  point to point; at the last tile it stores the accumulator to the output block.  Afterwards the 4096 x 128 result is
  viewed as 2 x 2048 x 128.

  Over the extended reals a change of float format is the identity, the converted comparison bit is exactly 0 or 1,
  and 0 * y = 0, 1 * y = y for every y, infinite or not; addition is commutative and associative.  So the scratch
  after point t holds the sum over the first t % 25 + 1 tiles (induction over the grid points), the stored block the
  sum over all 25, and a sum over 25 consecutive tiles of 1280 is the sum over the 32000 columns: the same function
  of the arguments as the reference's, with no use of the inputs' finiteness.  The idealized kernel is the kernel's
  own text read over the extended reals, so there is nothing to preserve.
-/
import proofs.«173414_j77541339562063_1_alg».proof.Defs
import proofs.«173414_j77541339562063_1_alg».proof.Proof.Gen.Kernel
import proofs.«173414_j77541339562063_1_alg».proof.Proof.Gen.Kernel.Frame
import proofs.«173414_j77541339562063_1_alg».proof.Proof.Gen.KernelIdeal
import proofs.«173414_j77541339562063_1_alg».proof.Proof.Gen.KernelIdeal.Frame
import proofs.«173414_j77541339562063_1_alg».proof.Proof.Gen.ReferenceIdeal
import proofs.«173414_j77541339562063_1_alg».proof.Proof.Gen.ReferenceIdeal.Run
import proofs.«173414_j77541339562063_1_alg».proof.Proof.Gen.ReferenceIdeal.Read
import proofs.«173414_j77541339562063_1_alg».proof.Proof.Gen.Pre_finite_inputs
import proofs.«173414_j77541339562063_1_alg».proof.Proof.KernelRun
import proofs.«173414_j77541339562063_1_alg».proof.Proof.RefSide
import Idealize.ShloMosaic.Adequacy
import Idealize.ShloMosaic.Init

noncomputable section

namespace Cert.Proof

open Idealize.ShloMosaic Idealize.SL.Sem

/-- The kernel runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and writes only its own results. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the result at the one-hot sum of the arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
